-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S3200000 : Shape := ⟨1, ![3200000]⟩
abbrev S100000x64 : Shape := ⟨2, ![100000, 64]⟩
abbrev S128x64 : Shape := ⟨2, ![128, 64]⟩
abbrev S1x64 : Shape := ⟨2, ![1, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3200000 : S_.BroadcastsInDim S3200000 (![] : Fin 0 → Fin S3200000.rank)
  reducesTo_S3200000_S_d0 : S3200000.ReducesTo [0] S_
  bcast_S_S100000x64 : S_.BroadcastsInDim S100000x64 (![] : Fin 0 → Fin S100000x64.rank)
  reducesTo_S100000x64_S_d0_1 : S100000x64.ReducesTo [0, 1] S_
  bcast_S_S128x64 : S_.BroadcastsInDim S128x64 (![] : Fin 0 → Fin S128x64.rank)
  reducesTo_S128x64_S_d0_1 : S128x64.ReducesTo [0, 1] S_
  bcast_S_S1x64 : S_.BroadcastsInDim S1x64 (![] : Fin 0 → Fin S1x64.rank)
  reducesTo_S1x64_S_d0_1 : S1x64.ReducesTo [0, 1] S_

variable [Facts]

def fn_part1 {F : FTy → Type} [FloatOps F] (main_arg6 : FVec F S1x64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S1x64 .f32 := Host.absf main_arg6
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  main_v23

def fn {F : FTy → Type} [FloatOps F] (main_arg0 : FVec F S100000x128 .f32) (main_arg1 : IVec S3200000 32) (main_arg2 : IVec S3200000 32) (main_arg3 : FVec F S3200000 .f32) (main_arg4 : FVec F S100000x64 .f32) (main_arg5 : FVec F S128x64 .f32) (main_arg6 : FVec F S1x64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3200000 .f32 := Host.absf main_arg3
  let main_cst_0 : FVec F S_ .f32 := constant S_ .f32 0x7F800000#32
  let main_v5 : FVec F S3200000 .f32 := broadcastInDim S3200000 ![] bcast_S_S3200000 main_cst_0
  let main_v6 : IVec S3200000 1 := cmpf .olt main_v4 main_v5
  let main_c_1 : IVec S_ 1 := constantI S_ 1 1#1
  let main_v7 : IVec S_ 1 := (fun x v => Host.reduce IntOp.andi x v reducesTo_S3200000_S_d0 h_S_) main_v6 main_c_1
  let main_v8 : IVec S_ 1 := andi main_v3 main_v7
  let main_v9 : FVec F S100000x64 .f32 := Host.absf main_arg4
  let main_cst_2 : FVec F S_ .f32 := constant S_ .f32 0x7F800000#32
  let main_v10 : FVec F S100000x64 .f32 := broadcastInDim S100000x64 ![] bcast_S_S100000x64 main_cst_2
  let main_v11 : IVec S100000x64 1 := cmpf .olt main_v9 main_v10
  let main_c_3 : IVec S_ 1 := constantI S_ 1 1#1
  let main_v12 : IVec S_ 1 := (fun x v => Host.reduce IntOp.andi x v reducesTo_S100000x64_S_d0_1 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_v13 main_v16
-- ==== Kernel.lean ====
abbrev S100000x128 : Shape := ⟨2, ![100000, 128]⟩
abbrev S3200000 : Shape := ⟨1, ![3200000]⟩
abbrev S100000x64 : Shape := ⟨2, ![100000, 64]⟩
abbrev S128x64 : Shape := ⟨2, ![128, 64]⟩
abbrev S1x64 : Shape := ⟨2, ![1, 64]⟩
abbrev S5000x128 : Shape := ⟨2, ![5000, 128]⟩
abbrev S5000x64 : Shape := ⟨2, ![5000, 64]⟩
abbrev S3200000x1 : Shape := ⟨2, ![3200000, 1]⟩
abbrev S_ : Shape := ⟨0, ![]⟩
abbrev S3200000x64 : Shape := ⟨2, ![3200000, 64]⟩
abbrev S10000x64 : Shape := ⟨2, ![10000, 64]⟩

abbrev nBuf : Space → Nat
  | .hbm => 25
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S100000x64, .f32⟩
  | .hbm, ⟨5, _⟩ => ⟨S128x64, .f32⟩
  | .hbm, ⟨6, _⟩ => ⟨S1x64, .f32⟩
  | .hbm, ⟨7, _⟩ => ⟨S100000x64, .f32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S100000x64, .f32⟩
  | .hbm, ⟨22, _⟩ => ⟨S3200000x1, .i32⟩
  | .hbm, ⟨23, _⟩ => ⟨S100000x64, .f32⟩
  | .hbm, ⟨24, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S1x64, .f32⟩
  | .local _ .vmem, ⟨10, _⟩ => ⟨S10000x64, .f32⟩
  | .local _ .vmem, ⟨11, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  broadcasts_S1x64_S10000x64 : S1x64.Broadcasts S10000x64
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S100000x64.size a
  hwx1_3 : ∀ i : grid1.Coords, EltTy.bits .f32 = 32 ∨ (Rect.block (s := S100000x64) S10000x64.size (cc1_transform_3 i) (hinb1_3 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x128 : Shape := ⟨2, ![100000, 128]⟩
abbrev S3200000 : Shape := ⟨1, ![3200000]⟩
abbrev S100000x64 : Shape := ⟨2, ![100000, 64]⟩
abbrev S128x64 : Shape := ⟨2, ![128, 64]⟩
abbrev S1x64 : Shape := ⟨2, ![1, 64]⟩
abbrev S3200000x1 : Shape := ⟨2, ![3200000, 1]⟩
abbrev S_ : Shape := ⟨0, ![]⟩
abbrev S3200000x64 : Shape := ⟨2, ![3200000, 64]⟩

abbrev nBuf : Space → Nat
  | .hbm => 40
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S3200000, .i32⟩
  | .hbm, ⟨2, _⟩ => ⟨S3200000, .i32⟩
  | .hbm, ⟨3, _⟩ => ⟨S3200000, .f32⟩
  | .hbm, ⟨4, _⟩ => ⟨S100000x64, .f32⟩
  | .hbm, ⟨5, _⟩ => ⟨S128x64, .f32⟩
  | .hbm, ⟨6, _⟩ => ⟨S1x64, .f32⟩
  | .hbm, ⟨7, _⟩ => ⟨S100000x64, .f32⟩
  | .hbm, ⟨8, _⟩ => ⟨S3200000x1, .f32⟩
  | .hbm, ⟨9, _⟩ => ⟨S_, .i32⟩
  | .hbm, ⟨10, _⟩ => ⟨S3200000, .i32⟩
  | .hbm, ⟨11, _⟩ => ⟨S3200000, .i1⟩
  | .hbm, ⟨12, _⟩ => ⟨S_, .i32⟩
  | .hbm, ⟨13, _⟩ => ⟨S3200000, .i32⟩
  | .hbm, ⟨14, _⟩ => ⟨S3200000, .i32⟩
  | .hbm, ⟨15, _⟩ => ⟨S3200000, .i32⟩
  | .hbm, ⟨16, _⟩ => ⟨S3200000x1, .i32⟩
  | .hbm, ⟨17, _⟩ => ⟨S3200000x64, .f32⟩
  | .hbm, ⟨18, _⟩ => ⟨S3200000x64, .f32⟩
  | .hbm, ⟨19, _⟩ => ⟨S3200000x64, .f32⟩
  | .hbm, ⟨20, _⟩ => ⟨S_, .f32⟩
  | .hbm, ⟨21, _⟩ => ⟨S100000x64, .f32⟩
  | .hbm, ⟨22, _⟩ => ⟨S3200000x1, .i32⟩
  | .hbm, ⟨23, _⟩ => ⟨S100000x64, .f32⟩
  | .hbm, ⟨24, _⟩ => ⟨S_, .f32⟩
  | .hbm, ⟨25, _⟩ => ⟨S100000x64, .f32⟩
  | .hbm, ⟨26, _⟩ => ⟨S100000x64, .f32⟩
  | .hbm, ⟨27, _⟩ => ⟨S_, .f32⟩
  | .hbm, ⟨28, _⟩ => ⟨S100000x64, .f32⟩
  | .hbm, ⟨29, _⟩ => ⟨S100000x64, .f32⟩
  | .hbm, ⟨30, _⟩ => ⟨S100000x64, .f32⟩
  | .hbm, ⟨31, _⟩ => ⟨S_, .f32⟩
  | .hbm, ⟨32, _⟩ => ⟨S100000x64, .f32⟩
  | .hbm, ⟨33, _⟩ => ⟨S100000x64, .f32⟩
  | .hbm, ⟨34, _⟩ => ⟨S_, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]

class Facts₀ : Prop where
  bcast_S3200000_S3200000x1_0 : S3200000.BroadcastsInDim S3200000x1 (![0] : Fin 1 → Fin S3200000x1.rank)
  bcast_S_S3200000 : S_.BroadcastsInDim S3200000 (![] : Fin 0 → Fin S3200000.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S1x64_S100000x64_0_1 : S1x64.BroadcastsInDim S100000x64 (![0, 1] : Fin 2 → Fin S100000x64.rank)
  dot_S100000x128_S128x64_S100000x64_1_0_0_1_n_n_wf : DotDims.WF S100000x128 S128x64 S100000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf

class Facts : Prop extends Facts₀ where

variable [Facts]
-- ==== Proof.RunResult.lean ====
/-
  The kernel's run with its result named.

  The three segments of the kernel's entry point — the projection region, the stretch of host operations, the combine
  region — are run from the launch memory exactly as for the frame; every unscoped buffer ends at the last segment
  boundary's contents. Read at the result buffer that gives the result array; read at an argument, which no segment
  writes, it gives the argument as launched.
-/
import proofs.«111752_j35802847380157_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel's entry point terminates, nothing faulting, with the result buffer at
    the last boundary's contents and the arguments as launched. -/
theorem run_result : θ_run defs (onTc (τ := τ) (main (F := F))) ⟨m, fun _ => 0, ρ⟩ (fun r => ∀ c : Dev nD,
      r.2.mem ((c.tc : Thread nD τ).loc main_v14) = W3 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v14 (by decide)),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c)⟩)

end Cert.KernelIdeal.Hand

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.Combine.lean ====
/-
  One GCNII layer on the extended reals, stated without any program.

  `project x w` is the dense projection: entry `(r, c)` is `Σ_{q < 128} x[r, q] · w[q, c]`.
  `combine hi h0 bias` is the layer's output: with `s = c₁ · hi[r, c] + c₂ · h0[r, c]` (the initial-residual mix of the
  aggregated entry and the first layer's entry), entry `(r, c)` is `(θ · s + θ' · s) + bias[0, c]`.
  The four constants are the f32 words both programs print; they are never evaluated, and `θ · s + θ' · s` is kept
  as the two-term form both programs compute (no law of the extended reals is used to fold it).
-/
import Idealize.ShloMosaic.PureOps.Ideal
import Idealize.ShloMosaic.Lib.ValueIdx

noncomputable section

open scoped BigOperators

namespace Cert.Gcnii

open Idealize.ShloMosaic Idealize.ShloMosaic.ValueIdx

/-- The dense projection `x · w`, entry by entry: row `r` of `x` against column `c` of `w`. -/
def project (x : (⟨2, ![100000, 128]⟩ : Shape).Idx → EReal) (w : (⟨2, ![128, 64]⟩ : Shape).Idx → EReal) :
    (⟨2, ![100000, 64]⟩ : Shape).Idx → EReal :=
  fun i => ∑ q : Fin 128, x (ix2 (i 0) q) * w (ix2 q (i 1))

/-- The initial-residual mix `c₁ · a + c₂ · b` of an aggregated entry `a` and a first-layer entry `b`. -/
def support (a b : EReal) : EReal :=
  Ideal.ofBits .f32 0x3F666666#32 * a + Ideal.ofBits .f32 0x3DCCCCCD#32 * b

/-- One entry of the layer's output: `(θ · s + θ' · s) + z` with `s = support a b` and `z` the column's bias. -/
def mix (a b z : EReal) : EReal :=
  (Ideal.ofBits .f32 0x3ECF991F#32 * support a b + Ideal.ofBits .f32 0x3F183370#32 * support a b) + z

/-- The layer's output array: entry `(r, c)` mixes `hi[r, c]`, `h0[r, c]` and `bias[0, c]`. -/
def combine (hi h0 : (⟨2, ![100000, 64]⟩ : Shape).Idx → EReal) (bias : (⟨2, ![1, 64]⟩ : Shape).Idx → EReal) :
    (⟨2, ![100000, 64]⟩ : Shape).Idx → EReal :=
  fun i => mix (hi i) (h0 i) (bias (ix2 0 (i 1)))

end Cert.Gcnii

end
-- ==== Proof.ProjectBlocks.lean ====
/-
  Region 0 of the kernel: the dense projection, one block of rows per grid point.

  Grid point `t` (of 20) loads rows `5000·t … 5000·t + 4999` of `x` and all of `w`, multiplies them into a zero
  accumulator, and writes back rows `5000·t …` of the projected table. Entry `(p, c)` of that block product is
  `Σ_q x[5000·t + p, q] · w[q, c]` — the sum `Cert.Gcnii.project x w` has at row `5000·t + p` (a change of float
  format is the identity on the extended reals, so the bf16 casts do not show). The 20 blocks tile the 100000 rows,
  so after the region the table IS `project x w`, whatever the region found in the table's buffer.
-/
import proofs.«111752_j35802847380157_2_alg».proof.Proof.Gen.KernelIdeal.Frame
import proofs.«111752_j35802847380157_2_alg».proof.Proof.LibPlainDot
import proofs.«111752_j35802847380157_2_alg».proof.Proof.Combine
import Idealize.ShloMosaic.Lib.Pipeline.Value

noncomputable section

open scoped BigOperators

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's product of a row block with `w`, at entry `(p, c)`: the row against the column. -/
theorem pay0_apply (x0 : Vec Ideal S5000x128 .f32) (x1 : Vec Ideal S128x64 .f32) (p : Fin 5000) (q : Fin 64) :
    k0_pay1 x0 x1 (ix2 p q) = ∑ k : Fin 128, x0 (ix2 p k) * x1 (ix2 k q) := by
  unfold k0_pay1
  exact Cert.PlainDot.matmul_zero_apply ⟨rfl, rfl, rfl, rfl, rfl, rfl⟩ none _ _ p q

/-- An entry of the block product is the projection's entry wherever the block's row is the array's row and the
    columns agree. -/
theorem block0_entry (x0 : Vec Ideal S5000x128 .f32) (x1 : Vec Ideal S128x64 .f32)
    (X : S100000x128.Idx → EReal) (W : S128x64.Idx → EReal) (p : Fin 5000) (q : Fin 64) (i : S100000x64.Idx)
    (h0 : ∀ k : Fin 128, x0 (ix2 p k) = X (ix2 (i 0) k))
    (h1 : ∀ k : Fin 128, x1 (ix2 k q) = W (ix2 k (i 1))) :
    k0_pay1 x0 x1 (ix2 p q) = Cert.Gcnii.project X W i := by
  rw [pay0_apply]
  unfold Cert.Gcnii.project
  exact Finset.sum_congr rfl fun k _ => by rw [h0 k, h1 k]

/-- The printed index maps over the grid: the row blocks of `x` and of the table move with the point, `w` stays. -/
theorem idx_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is block `t` of the projection of the arrays the region finds. -/
theorem flushed0_eq (c : Dev nD) (t : Fin cfg0.N) :
    (dat0 V c).flushed 2 t
      = ((cfg0.win 2).blk t).view.read (Elt Ideal) (Cert.Gcnii.project (V c main_arg0) (V c main_arg5)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨e00, e01, e10, e11, e20, e21⟩ := idx_facts0 t
  funext j
  obtain ⟨p, q, rfl⟩ : ∃ (p : Fin 5000) (q : Fin 64), j = ix2 p q := ⟨j 0, j 1, eq_ix2 j⟩
  refine block0_entry (iblk0 V c 0 t) (iblk0 V c 1 t) (V c main_arg0) (V c main_arg5) p q
    (((cfg0.win 2).blk t).view.emb (ix2 p q)) (fun k => ?_) (fun k => ?_)
  · show V c main_arg0 (((cfg0.win 0).blk t).view.emb (ix2 p k))
      = V c main_arg0 (ix2 ((((cfg0.win 2).blk t).view.emb (ix2 p q)) 0) k)
    refine congrArg _ (funext fun a => Fin.ext ?_)
    match a with
    | ⟨0, _⟩ => show win0_0.index t (0 : Fin 2) * 5000 + 1 * p.val = win0_2.index t (0 : Fin 2) * 5000 + 1 * p.val; rw [e00, e20]
    | ⟨1, _⟩ => show win0_0.index t (1 : Fin 2) * 128 + 1 * k.val = k.val; rw [e01]; omega
  · show V c main_arg5 (((cfg0.win 1).blk t).view.emb (ix2 k q))
      = V c main_arg5 (ix2 k ((((cfg0.win 2).blk t).view.emb (ix2 p q)) 1))
    refine congrArg _ (funext fun a => Fin.ext ?_)
    match a with
    | ⟨0, _⟩ => show win0_1.index t (0 : Fin 2) * 128 + 1 * k.val = k.val; rw [e10]; omega
    | ⟨1, _⟩ => show win0_1.index t (1 : Fin 2) * 64 + 1 * q.val = win0_2.index t (1 : Fin 2) * 64 + 1 * q.val; rw [e11, e21]

/-- An index of the table is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val
      ∧ (i a).val < win0_2.index t a * S5000x64.size a + S5000x64.size a := by
  show i ∈ ((View.whole main_v0).slice (win0_2.rect t)).set ↔ _
  rw [View.set_slice_whole, Rect.mem_set_unit]
  exact Iff.rfl

/-- Every row of the table is in some point's block: row `r` in block `r / 5000`. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨-, -, -, -, e20, e21⟩ := idx_facts0 t
  refine ⟨t, flush0_2 t, ?_⟩
  rw [mem_blk0]
  intro a
  match a with
  | ⟨0, _⟩ =>
    show win0_2.index t (0 : Fin 2) * 5000 ≤ (i 0).val ∧ (i 0).val < win0_2.index t (0 : Fin 2) * 5000 + 5000
    rw [e20]; show (i 0).val / 5000 * 5000 ≤ (i 0).val ∧ (i 0).val < (i 0).val / 5000 * 5000 + 5000; omega
  | ⟨1, _⟩ =>
    show win0_2.index t (1 : Fin 2) * 64 ≤ (i 1).val ∧ (i 1).val < win0_2.index t (1 : Fin 2) * 64 + 64
    rw [e21]; omega

/-- After region 0 the table is the projection of the arrays the region found. -/
theorem final0 (c : Dev nD) :
    (dat0 V c).arrAt 2 cfg0.N = Cert.Gcnii.project (V c main_arg0) (V c main_arg5) :=
  (dat0 V c).arrAt_eq_of_cover 2 _ (fun t _ => flushed0_eq V c t) cover0

end Cert.KernelIdeal.Hand

end
-- ==== Proof.CombineBlocks.lean ====
/-
  Region 1 of the kernel: the combine, one block of rows per grid point.

  Grid point `t` (of 10) loads rows `10000·t … 10000·t + 9999` of the aggregated table and of `h0`, and the one bias
  row; entry `(p, c)` of what it stores is `mix hi[10000·t + p, c] h0[10000·t + p, c] bias[0, c]` — the entry
  `Cert.Gcnii.combine hi h0 bias` has at row `10000·t + p`. The 10 blocks tile the 100000 rows, so after the region the
  result array IS `combine hi h0 bias` of the arrays the region found.
-/
import proofs.«111752_j35802847380157_2_alg».proof.Proof.Gen.KernelIdeal.Frame
import proofs.«111752_j35802847380157_2_alg».proof.Proof.Combine
import Idealize.ShloMosaic.Lib.Pipeline.Value

noncomputable section

namespace Cert.KernelIdeal.Hand

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The bias row broadcast down the block's rows: entry `(p, c)` is the row's entry `c`. -/
theorem bias_rows (x2 : Vec Ideal S1x64 .f32) (p : Fin 10000) (q : Fin 64) :
    broadcastTo S10000x64 x2 broadcasts_S1x64_S10000x64 (ix2 p q) = x2 (ix2 0 q) :=
  broadcastTo_apply x2 broadcasts_S1x64_S10000x64 (ix2 p q) (ix2 0 q) (fun a => match a with
    | ⟨0, _⟩ => by show 0 = if (1 : Nat) = 1 then 0 else _; rw [if_pos rfl]
    | ⟨1, _⟩ => by show q.val = if (64 : Nat) = 1 then 0 else q.val; rw [if_neg (by decide)])

/-- The body's stored value at entry `(p, c)`: the mix of the two blocks' entries and the bias row's. -/
theorem pay1_apply (x0 x1 : Vec Ideal S10000x64 .f32) (x2 : Vec Ideal S1x64 .f32) (p : Fin 10000) (q : Fin 64) :
    k1_pay1 x0 x1 x2 (ix2 p q) = Cert.Gcnii.mix (x0 (ix2 p q)) (x1 (ix2 p q)) (x2 (ix2 0 q)) := by
  unfold k1_pay1
  simp only [shapeCast_self]
  show _ + broadcastTo S10000x64 x2 broadcasts_S1x64_S10000x64 (ix2 p q) = _
  rw [bias_rows]
  rfl

/-- An entry of the block's stored value is the layer's entry wherever the block's entries are the arrays'. -/
theorem block1_entry (x0 x1 : Vec Ideal S10000x64 .f32) (x2 : Vec Ideal S1x64 .f32)
    (HI H0 : S100000x64.Idx → EReal) (B : S1x64.Idx → EReal) (p : Fin 10000) (q : Fin 64) (i : S100000x64.Idx)
    (h0 : x0 (ix2 p q) = HI i) (h1 : x1 (ix2 p q) = H0 i) (h2 : x2 (ix2 0 q) = B (ix2 0 (i 1))) :
    k1_pay1 x0 x1 x2 (ix2 p q) = Cert.Gcnii.combine HI H0 B i := by
  rw [pay1_apply, h0, h1, h2]
  rfl

/-- The printed index maps over the grid: the row blocks of the table, of `h0` and of the result move with the
    point, the bias row stays. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the combine of the arrays the region finds. -/
theorem flushed1_eq (c : Dev nD) (t : Fin cfg1.N) :
    (dat1 V c).flushed 3 t
      = ((cfg1.win 3).blk t).view.read (Elt Ideal)
          (Cert.Gcnii.combine (V c main_v13) (V c main_arg4) (V c main_arg6)) := by
  show (cfg1.win 3).cut (grid1.coords t) ((dat1 V c).after 3 t) = _
  rw [after1_3]
  unfold out1_3
  rw [View.canon_unit_zero hz1]
  simp only [View.ld_unit_zero (S := S10000x64) hz1, View.ld_unit_zero (S := S1x64) hz1]
  obtain ⟨e00, e01, e10, e11, e20, e21, e30, e31⟩ := idx_facts1 t
  funext j
  obtain ⟨p, q, rfl⟩ : ∃ (p : Fin 10000) (q : Fin 64), j = ix2 p q := ⟨j 0, j 1, eq_ix2 j⟩
  refine block1_entry (iblk1 V c 0 t) (iblk1 V c 1 t) (iblk1 V c 2 t) (V c main_v13) (V c main_arg4) (V c main_arg6) p q
    (((cfg1.win 3).blk t).view.emb (ix2 p q)) ?_ ?_ ?_
  · show V c main_v13 (((cfg1.win 0).blk t).view.emb (ix2 p q)) = V c main_v13 (((cfg1.win 3).blk t).view.emb (ix2 p q))
    refine congrArg _ (funext fun a => Fin.ext ?_)
    match a with
    | ⟨0, _⟩ => show win1_0.index t (0 : Fin 2) * 10000 + 1 * p.val = win1_3.index t (0 : Fin 2) * 10000 + 1 * p.val; rw [e00, e30]
    | ⟨1, _⟩ => show win1_0.index t (1 : Fin 2) * 64 + 1 * q.val = win1_3.index t (1 : Fin 2) * 64 + 1 * q.val; rw [e01, e31]
  · show V c main_arg4 (((cfg1.win 1).blk t).view.emb (ix2 p q)) = V c main_arg4 (((cfg1.win 3).blk t).view.emb (ix2 p q))
    refine congrArg _ (funext fun a => Fin.ext ?_)
    match a with
    | ⟨0, _⟩ => show win1_1.index t (0 : Fin 2) * 10000 + 1 * p.val = win1_3.index t (0 : Fin 2) * 10000 + 1 * p.val; rw [e10, e30]
    | ⟨1, _⟩ => show win1_1.index t (1 : Fin 2) * 64 + 1 * q.val = win1_3.index t (1 : Fin 2) * 64 + 1 * q.val; rw [e11, e31]
  · show V c main_arg6 (((cfg1.win 2).blk t).view.emb (ix2 0 q))
      = V c main_arg6 (ix2 0 ((((cfg1.win 3).blk t).view.emb (ix2 p q)) 1))
    refine congrArg _ (funext fun a => Fin.ext ?_)
    match a with
    | ⟨0, _⟩ => show win1_2.index t (0 : Fin 2) * 1 + 1 * 0 = 0; rw [e20]
    | ⟨1, _⟩ => show win1_2.index t (1 : Fin 2) * 64 + 1 * q.val = win1_3.index t (1 : Fin 2) * 64 + 1 * q.val; rw [e21, e31]

/-- An index of the result is in point `t`'s block iff each coordinate is in the block's range on its axis. -/
theorem mem_blk1 (t : Fin cfg1.N) (i : S100000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v14).slice (win1_3.rect t)).set ↔ _
  rw [View.set_slice_whole, Rect.mem_set_unit]
  exact Iff.rfl

/-- Every row of the result is in some point's block: row `r` in block `r / 10000`. -/
theorem cover1 (i : S100000x64.Idx) :
    ∃ t : Fin cfg1.N, (cfg1.win 3).flush t = true ∧ i ∈ ((cfg1.win 3).blk t).view.set := by
  have hi0 : (i 0).val < 100000 := (i 0).isLt
  have hi1 : (i 1).val < 64 := (i 1).isLt
  have hN : cfg1.N = 10 := N_1
  let t : Fin cfg1.N := ⟨(i 0).val / 10000, by rw [hN]; omega⟩
  obtain ⟨-, -, -, -, -, -, e30, e31⟩ := idx_facts1 t
  refine ⟨t, flush1_3 t, ?_⟩
  rw [mem_blk1]
  intro a
  match a with
  | ⟨0, _⟩ =>
    show win1_3.index t (0 : Fin 2) * 10000 ≤ (i 0).val ∧ (i 0).val < win1_3.index t (0 : Fin 2) * 10000 + 10000
    rw [e30]; show (i 0).val / 10000 * 10000 ≤ (i 0).val ∧ (i 0).val < (i 0).val / 10000 * 10000 + 10000; omega
  | ⟨1, _⟩ =>
    show win1_3.index t (1 : Fin 2) * 64 ≤ (i 1).val ∧ (i 1).val < win1_3.index t (1 : Fin 2) * 64 + 64
    rw [e31]; omega

/-- After region 1 the result array is the combine of the arrays the region found. -/
theorem final1 (c : Dev nD) :
    (dat1 V c).arrAt 3 cfg1.N = Cert.Gcnii.combine (V c main_v13) (V c main_arg4) (V c main_arg6) :=
  (dat1 V c).arrAt_eq_of_cover 3 _ (fun t _ => flushed1_eq V c t) cover1

end Cert.KernelIdeal.Hand

end
-- ==== Proof.Aggregate.lean ====
/-
  The sparse aggregation of a GCNII layer, as one function of the projected table.

  Edge `e` reads row `cols[e]` of the table (a negative index wrapped once by `+100000`, as array indexing does),
  scales it by `vals[e]`, and the scaled rows are added into row `rows[e]` of a table of zeros. Both programs run
  exactly this line of host operations on the same edge arrays; they differ only in how the table they feed it was
  produced, so the aggregation is kept as ONE opaque function of that table and is never read at an index.
-/
import proofs.«111752_j35802847380157_2_alg».proof.Proof.Gen.ReferenceIdeal
import Idealize.ShloMosaic.PureOps.Ideal

noncomputable section

namespace Cert.Gcnii

open Cert.ReferenceIdeal Cert.ReferenceIdeal.Facts₀ Idealize.ShloMosaic

/-- The aggregated table `hi`: `hi[r] = Σ_{e : rows[e] = r} vals[e] · xw[cols[e]]`, as the host operations state it. -/
def aggregate (xw : FVec Ideal S100000x64 .f32) (rows cols : IVec S3200000 32) (vals : FVec Ideal S3200000 .f32) :
    FVec Ideal S100000x64 .f32 :=
  Host.scatterAdd (F := Ideal) scatter_S100000x64_S3200000x1_S3200000x64_1_0_0_1
    (broadcastInDim S100000x64 ![] bcast_S_S100000x64 (constant (F := Ideal) S_ .f32 0x00000000#32))
    (broadcastInDim S3200000x1 ![0] bcast_S3200000_S3200000x1_0 rows)
    (mulf (F := Ideal) (broadcastInDim S3200000x64 ![0, 1] bcast_S3200000x1_S3200000x64_0_1
            (broadcastInDim S3200000x1 ![0] bcast_S3200000_S3200000x1_0 vals))
      (Host.gather gather_S100000x64_S3200000x1_S3200000x64_1_0_n_n_0_1_164 xw
        (broadcastInDim S3200000x1 ![0] bcast_S3200000_S3200000x1_0
          (select (cmpi .slt cols (broadcastInDim S3200000 ![] bcast_S_S3200000 (constantI S_ 32 0#32)))
            (addi cols (broadcastInDim S3200000 ![] bcast_S_S3200000 (constantI S_ 32 100000#32))) cols))))

end Cert.Gcnii

end
-- ==== Proof.KernelValue.lean ====
/-
  The kernel's result array as the layer's function of the arguments, read back segment by segment.

  The last boundary's contents at the result buffer are what the combine region leaves:
  `combine hi h0 bias` of the arrays that region found. It found `h0` and `bias` as launched (no segment writes an
  argument) and `hi` as the host stretch left it: the aggregation, over the edge arrays as launched, of the table
  the projection region left — which is `project x w` of the arguments as launched.
-/
import proofs.«111752_j35802847380157_2_alg».proof.Proof.Gen.KernelIdeal.Frame
import proofs.«111752_j35802847380157_2_alg».proof.Proof.ProjectBlocks
import proofs.«111752_j35802847380157_2_alg».proof.Proof.CombineBlocks
import proofs.«111752_j35802847380157_2_alg».proof.Proof.Aggregate
import Idealize.ShloMosaic.Lib.StableHlo.Run

noncomputable section

namespace Cert.KernelIdeal.Hand

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- After the projection region the table is the projection of `x` and `w` as launched. -/
theorem table_eq (c : Dev nD) :
    W1 m ρ c (Proc.devRef .tc main_v0)
      = Cert.Gcnii.project (m ((c : Thread nD τ).loc main_arg0)) (m ((c : Thread nD τ).loc main_arg5)) :=
  (W1_arr m ρ c 2).trans (final0 (V0 m ρ) c)

/-- The projection region writes none of the edge arrays, nor `h0`, nor the bias. -/
theorem W1_arg1 (c : Dev nD) : W1 m ρ c (Proc.devRef .tc main_arg1) = m ((c : Thread nD τ).loc main_arg1) :=
  W1_of_ne m ρ c main_arg1 (by decide)
theorem W1_arg2 (c : Dev nD) : W1 m ρ c (Proc.devRef .tc main_arg2) = m ((c : Thread nD τ).loc main_arg2) :=
  W1_of_ne m ρ c main_arg2 (by decide)
theorem W1_arg3 (c : Dev nD) : W1 m ρ c (Proc.devRef .tc main_arg3) = m ((c : Thread nD τ).loc main_arg3) :=
  W1_of_ne m ρ c main_arg3 (by decide)
theorem W1_arg4 (c : Dev nD) : W1 m ρ c (Proc.devRef .tc main_arg4) = m ((c : Thread nD τ).loc main_arg4) :=
  W1_of_ne m ρ c main_arg4 (by decide)
theorem W1_arg6 (c : Dev nD) : W1 m ρ c (Proc.devRef .tc main_arg6) = m ((c : Thread nD τ).loc main_arg6) :=
  W1_of_ne m ρ c main_arg6 (by decide)

/-- After the host stretch the aggregated table is the aggregation, over the edge arrays as launched, of the
    projection. -/
theorem aggregated_eq (c : Dev nD) :
    W2 m ρ c (Proc.devRef .tc main_v13)
      = Cert.Gcnii.aggregate
          (Cert.Gcnii.project (m ((c : Thread nD τ).loc main_arg0)) (m ((c : Thread nD τ).loc main_arg5)))
          (m ((c : Thread nD τ).loc main_arg1)) (m ((c : Thread nD τ).loc main_arg2)) (m ((c : Thread nD τ).loc main_arg3)) := by
  show StableHlo.after hostOps1 (W1 m ρ c) (Proc.devRef .tc main_v13) = _
  after_results_simp
  rw [table_eq, W1_arg1, W1_arg2, W1_arg3]
  rfl

/-- The host stretch writes neither `h0` nor the bias. -/
theorem W2_arg4 (c : Dev nD) : W2 m ρ c (Proc.devRef .tc main_arg4) = m ((c : Thread nD τ).loc main_arg4) := by
  show StableHlo.after hostOps1 (W1 m ρ c) (Proc.devRef .tc main_arg4) = _
  after_results_simp
  exact W1_arg4 m ρ c
theorem W2_arg6 (c : Dev nD) : W2 m ρ c (Proc.devRef .tc main_arg6) = m ((c : Thread nD τ).loc main_arg6) := by
  show StableHlo.after hostOps1 (W1 m ρ c) (Proc.devRef .tc main_arg6) = _
  after_results_simp
  exact W1_arg6 m ρ c

/-- The result array after the run is the layer's function of the arguments as launched. -/
theorem result_eq (c : Dev nD) :
    W3 m ρ c (Proc.devRef .tc main_v14)
      = Cert.Gcnii.combine
          (Cert.Gcnii.aggregate
            (Cert.Gcnii.project (m ((c : Thread nD τ).loc main_arg0)) (m ((c : Thread nD τ).loc main_arg5)))
            (m ((c : Thread nD τ).loc main_arg1)) (m ((c : Thread nD τ).loc main_arg2)) (m ((c : Thread nD τ).loc main_arg3)))
          (m ((c : Thread nD τ).loc main_arg4)) (m ((c : Thread nD τ).loc main_arg6)) := by
  refine ((W3_arr m ρ c 3).trans (final1 (V2 m ρ) c)).trans ?_
  show Cert.Gcnii.combine (W2 m ρ c (Proc.devRef .tc main_v13)) (W2 m ρ c (Proc.devRef .tc main_arg4))
      (W2 m ρ c (Proc.devRef .tc main_arg6)) = _
  rw [aggregated_eq, W2_arg4, W2_arg6]

end Cert.KernelIdeal.Hand

end
-- ==== Proof.ReferenceValue.lean ====
/-
  The reference computes `combine (aggregate (project x w) rows cols vals) h0 bias`.

  Its `dot_general` at entry `(r, c)` is the row-by-column sum (the plain-product lemma), its aggregation is the
  shared line of host operations on that table, and the remaining operations are entrywise: a constant broadcast
  over the array reads as the constant, the bias row broadcast down the rows reads as the column's bias entry.
-/
import proofs.«111752_j35802847380157_2_alg».proof.Proof.Gen.ReferenceIdeal.Run
import proofs.«111752_j35802847380157_2_alg».proof.Proof.LibPlainDot
import proofs.«111752_j35802847380157_2_alg».proof.Proof.Combine
import proofs.«111752_j35802847380157_2_alg».proof.Proof.Aggregate
import Idealize.ShloMosaic.Lib.Pipeline.Value
import Idealize.ShloMosaic.Lib.ValueIdx

noncomputable section

namespace Cert.ReferenceIdeal.RefValue

open Cert.ReferenceIdeal Cert.ReferenceIdeal.Facts₀ Idealize.ShloMosaic Idealize.ShloMosaic.ValueIdx

/-- The reference's `dot_general` is the dense projection. -/
theorem dot_eq_project (x0 : FVec Ideal S100000x128 .f32) (x5 : FVec Ideal S128x64 .f32) :
    Host.dotGeneral (F := Ideal) dot_S100000x128_S128x64_S100000x64_1_0_0_1_n_n none x0 x5 = Cert.Gcnii.project x0 x5 := by
  funext i
  obtain ⟨p, q, rfl⟩ : ∃ (p : Fin 100000) (q : Fin 64), i = ix2 p q := ⟨i 0, i 1, eq_ix2 i⟩
  exact (Cert.PlainDot.dotGeneral_apply (d := dot_S100000x128_S128x64_S100000x64_1_0_0_1_n_n)
    ⟨rfl, rfl, rfl, rfl, rfl, rfl⟩ none x0 x5 p q).trans rfl

/-- A rank-0 constant broadcast over the whole array. -/
abbrev splat (w : BitVec 32) : FVec Ideal S100000x64 .f32 :=
  broadcastInDim S100000x64 ![] bcast_S_S100000x64 (constant (F := Ideal) S_ .f32 w)

/-- At any entry it is the constant. -/
theorem splat_apply (w : BitVec 32) (i : S100000x64.Idx) : splat w i = Ideal.ofBits .f32 w :=
  broadcastInDim_apply _ bcast_S_S100000x64 (constant (F := Ideal) S_ .f32 w) i (fun a => a.elim0) (fun a => a.elim0)

/-- The bias row broadcast down the rows. -/
abbrev biasRows (b : FVec Ideal S1x64 .f32) : FVec Ideal S100000x64 .f32 :=
  broadcastInDim S100000x64 ![0, 1] bcast_S1x64_S100000x64_0_1 b

/-- At entry `(r, c)` it is the row's entry `c`. -/
theorem biasRows_apply (b : FVec Ideal S1x64 .f32) (i : S100000x64.Idx) : biasRows b i = b (ix2 0 (i 1)) :=
  broadcastInDim_apply _ bcast_S1x64_S100000x64_0_1 b i (ix2 0 (i 1)) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])

/-- The reference's last operations, on any aggregated table: entry by entry the layer's combine. -/
theorem combine_eq (hi h0 : FVec Ideal S100000x64 .f32) (b : FVec Ideal S1x64 .f32) :
    addf (F := Ideal)
        (addf (F := Ideal)
          (mulf (F := Ideal) (splat 0x3ECF991F#32)
            (addf (F := Ideal) (mulf (F := Ideal) (splat 0x3F666666#32) hi) (mulf (F := Ideal) (splat 0x3DCCCCCD#32) h0)))
          (mulf (F := Ideal) (splat 0x3F183370#32)
            (addf (F := Ideal) (mulf (F := Ideal) (splat 0x3F666666#32) hi) (mulf (F := Ideal) (splat 0x3DCCCCCD#32) h0))))
        (biasRows b)
      = Cert.Gcnii.combine hi h0 b := by
  funext i
  show (splat 0x3ECF991F#32 i * (splat 0x3F666666#32 i * hi i + splat 0x3DCCCCCD#32 i * h0 i)
        + splat 0x3F183370#32 i * (splat 0x3F666666#32 i * hi i + splat 0x3DCCCCCD#32 i * h0 i)) + biasRows b i
      = Cert.Gcnii.mix (hi i) (h0 i) (b (ix2 0 (i 1)))
  rw [splat_apply, splat_apply, splat_apply, splat_apply, biasRows_apply]
  rfl

/-- The reference's result term is the layer's function of the argument arrays. -/
theorem result_eq (x0 : FVec Ideal S100000x128 .f32)
    (x1 x2 : IVec S3200000 32) (x3 : FVec Ideal S3200000 .f32)
    (x4 : FVec Ideal S100000x64 .f32) (x5 : FVec Ideal S128x64 .f32)
    (x6 : FVec Ideal S1x64 .f32) :
    addf (F := Ideal) (addf (F := Ideal) (mulf (F := Ideal) (broadcastInDim S100000x64 ![] bcast_S_S100000x64 (constant (F := Ideal) S_ .f32 0x3ECF991F#32)) (addf (F := Ideal) (mulf (F := Ideal) (broadcastInDim S100000x64 ![] bcast_S_S100000x64 (constant (F := Ideal) S_ .f32 0x3F666666#32)) (Host.scatterAdd (F := Ideal) scatter_S100000x64_S3200000x1_S3200000x64_1_0_0_1 (broadcastInDim S100000x64 ![] bcast_S_S100000x64 (constant (F := Ideal) S_ .f32 0x00000000#32)) (broadcastInDim S3200000x1 ![0] bcast_S3200000_S3200000x1_0 (x1)) (mulf (F := Ideal) (broadcastInDim S3200000x64 ![0, 1] bcast_S3200000x1_S3200000x64_0_1 (broadcastInDim S3200000x1 ![0] bcast_S3200000_S3200000x1_0 (x3))) (Host.gather gather_S100000x64_S3200000x1_S3200000x64_1_0_n_n_0_1_164 (Host.dotGeneral (F := Ideal) dot_S100000x128_S128x64_S100000x64_1_0_0_1_n_n none (x0) (x5)) (broadcastInDim S3200000x1 ![0] bcast_S3200000_S3200000x1_0 (select (cmpi .slt (x2) (broadcastInDim S3200000 ![] bcast_S_S3200000 (constantI S_ 32 0#32))) (addi (x2) (broadcastInDim S3200000 ![] bcast_S_S3200000 (constantI S_ 32 100000#32))) (x2))))))) (mulf (F := Ideal) (broadcastInDim S100000x64 ![] bcast_S_S100000x64 (constant (F := Ideal) S_ .f32 0x3DCCCCCD#32)) (x4)))) (mulf (F := Ideal) (broadcastInDim S100000x64 ![] bcast_S_S100000x64 (constant (F := Ideal) S_ .f32 0x3F183370#32)) (addf (F := Ideal) (mulf (F := Ideal) (broadcastInDim S100000x64 ![] bcast_S_S100000x64 (constant (F := Ideal) S_ .f32 0x3F666666#32)) (Host.scatterAdd (F := Ideal) scatter_S100000x64_S3200000x1_S3200000x64_1_0_0_1 (broadcastInDim S100000x64 ![] bcast_S_S100000x64 (constant (F := Ideal) S_ .f32 0x00000000#32)) (broadcastInDim S3200000x1 ![0] bcast_S3200000_S3200000x1_0 (x1)) (mulf (F := Ideal) (broadcastInDim S3200000x64 ![0, 1] bcast_S3200000x1_S3200000x64_0_1 (broadcastInDim S3200000x1 ![0] bcast_S3200000_S3200000x1_0 (x3))) (Host.gather gather_S100000x64_S3200000x1_S3200000x64_1_0_n_n_0_1_164 (Host.dotGeneral (F := Ideal) dot_S100000x128_S128x64_S100000x64_1_0_0_1_n_n none (x0) (x5)) (broadcastInDim S3200000x1 ![0] bcast_S3200000_S3200000x1_0 (select (cmpi .slt (x2) (broadcastInDim S3200000 ![] bcast_S_S3200000 (constantI S_ 32 0#32))) (addi (x2) (broadcastInDim S3200000 ![] bcast_S_S3200000 (constantI S_ 32 100000#32))) (x2))))))) (mulf (F := Ideal) (broadcastInDim S100000x64 ![] bcast_S_S100000x64 (constant (F := Ideal) S_ .f32 0x3DCCCCCD#32)) (x4))))) (broadcastInDim S100000x64 ![0, 1] bcast_S1x64_S100000x64_0_1 (x6))
      = Cert.Gcnii.combine (Cert.Gcnii.aggregate (Cert.Gcnii.project x0 x5) x1 x2 x3) x4 x6 := by
  rw [dot_eq_project]
  exact combine_eq _ x4 x6

end Cert.ReferenceIdeal.RefValue

end
-- ==== Proof.lean ====
/-
  One GCNII layer: a Pallas kernel in two regions with a sparse aggregation between them, against its jnp reference,
  equal on the extended reals.

  Both programs compute, for node features `x` [100000, 128], weights `w` [128, 64], edges (`rows`, `cols`, `vals`)
  of length 3200000, first-layer features `h0` [100000, 64] and a bias row [1, 64]:

      xw  = x · w                                            (the dense projection)
      hi  = Σ over edges e into row rows[e] of vals[e] · xw[cols[e]]   (the aggregation)
      s   = c₁ · hi + c₂ · h0 ,   out = (θ · s + θ' · s) + bias          (the combine)

  with the same four f32 constants `c₁, c₂, θ, θ'` in both. The reference does this in one line of host operations.
  The kernel computes `xw` in a first region, 5000 rows per grid point, each block a product into a zero accumulator
  after casts to bf16 (the identity on the extended reals); runs the SAME host operations for the aggregation; and
  computes the combine in a second region, 10000 rows per grid point.

  Nothing here needs the inputs finite: entry `(r, c)` of a block product and of the whole product are the same sum
  `Σ_q x[r, q] · w[q, c]`, the aggregation is one function applied to equal tables, and the combine is the same
  entrywise expression — no distributivity or cancellation on the extended reals is used.

  The modules: `Combine` (the projection and the combine as plain functions), `Aggregate` (the aggregation as one
  function of the table), `LibPlainDot` (a plain product at an entry), `ProjectBlocks` / `CombineBlocks` (each
  region's output array: what a grid point writes is its block of the plain function, and the blocks tile the rows),
  `RunResult` (the kernel's run with the result buffer named), `KernelValue` (the result read back through the three
  segments), `ReferenceValue` (the reference's term is the same function). The frames of the two kernels and the
  reference's run are the generated modules'.
-/
import proofs.«111752_j35802847380157_2_alg».proof.Defs
import proofs.«111752_j35802847380157_2_alg».proof.Proof.Gen.Kernel
import proofs.«111752_j35802847380157_2_alg».proof.Proof.Gen.Kernel.Skeleton
import proofs.«111752_j35802847380157_2_alg».proof.Proof.Gen.Kernel.Launch
import proofs.«111752_j35802847380157_2_alg».proof.Proof.Gen.Kernel.Points
import proofs.«111752_j35802847380157_2_alg».proof.Proof.Gen.Kernel.Frame
import proofs.«111752_j35802847380157_2_alg».proof.Proof.Gen.KernelIdeal
import proofs.«111752_j35802847380157_2_alg».proof.Proof.Gen.KernelIdeal.Skeleton
import proofs.«111752_j35802847380157_2_alg».proof.Proof.Gen.KernelIdeal.Launch
import proofs.«111752_j35802847380157_2_alg».proof.Proof.Gen.KernelIdeal.Points
import proofs.«111752_j35802847380157_2_alg».proof.Proof.Gen.KernelIdeal.Frame
import proofs.«111752_j35802847380157_2_alg».proof.Proof.Gen.ReferenceIdeal
import proofs.«111752_j35802847380157_2_alg».proof.Proof.Gen.ReferenceIdeal.Run
import proofs.«111752_j35802847380157_2_alg».proof.Proof.Gen.Pre_finite_inputs
import proofs.«111752_j35802847380157_2_alg».proof.Proof.RunResult
import proofs.«111752_j35802847380157_2_alg».proof.Proof.KernelValue
import proofs.«111752_j35802847380157_2_alg».proof.Proof.ReferenceValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the result array at
    `combine (aggregate (project x w) rows cols vals) h0 bias` of the arguments. -/
theorem algebraic : Cert.algebraic_KernelIdeal_ReferenceIdeal := by
  intro m ρ m' ρ' _ hagree
  refine ⟨fun c => Cert.Gcnii.combine
      (Cert.Gcnii.aggregate
        (Cert.Gcnii.project (m ((c.tc : Thread Cert.KernelIdeal.nD Cert.KernelIdeal.τ).loc Cert.KernelIdeal.main_arg0))
          (m ((c.tc : Thread Cert.KernelIdeal.nD Cert.KernelIdeal.τ).loc Cert.KernelIdeal.main_arg5)))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg6)), ?_, ?_⟩
  · exact (θ_run Cert.KernelIdeal.defs _ _).mono
      (fun _ h c => ⟨(h c).1.trans (Cert.KernelIdeal.Hand.result_eq m ρ c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6⟩ := hagree c
    rw [a0, a1, a2, a3, a4, a5, a6]
    exact Cert.ReferenceIdeal.RefValue.result_eq _ _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
